-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x128x128 : Shape := ⟨4, ![64, 64, 128, 128]⟩
abbrev S64x128x4x4 : Shape := ⟨4, ![64, 128, 4, 4]⟩
abbrev S128 : Shape := ⟨1, ![128]⟩
abbrev S_ : Shape := ⟨0, ![]⟩

class Facts : Prop where
  bcast_S_S64x64x128x128 : S_.BroadcastsInDim S64x64x128x128 (![] : Fin 0 → Fin S64x64x128x128.rank)
  reducesTo_S64x64x128x128_S_d0_1_2_3 : S64x64x128x128.ReducesTo [0, 1, 2, 3] S_
  h_S_ : 0 < S_.numel
  bcast_S_S64x128x4x4 : S_.BroadcastsInDim S64x128x4x4 (![] : Fin 0 → Fin S64x128x4x4.rank)
  reducesTo_S64x128x4x4_S_d0_1_2_3 : S64x128x4x4.ReducesTo [0, 1, 2, 3] S_
  bcast_S_S128 : S_.BroadcastsInDim S128 (![] : Fin 0 → Fin S128.rank)
  reducesTo_S128_S_d0 : S128.ReducesTo [0] S_

variable [Facts]

def fn {F : FTy → Type} [FloatOps F] (main_arg0 : FVec F S64x64x128x128 .f32) (main_arg1 : FVec F S64x128x4x4 .f32) (main_arg2 : FVec F S128 .f32) : IVec S_ 1 :=
  let main_v0 : FVec F S64x64x128x128 .f32 := Host.absf main_arg0
  let main_cst : FVec F S_ .f32 := constant S_ .f32 0x7F800000#32
  let main_v1 : FVec F S64x64x128x128 .f32 := broadcastInDim S64x64x128x128 ![] bcast_S_S64x64x128x128 main_cst
  let main_v2 : IVec S64x64x128x128 1 := cmpf .olt main_v0 main_v1
  let main_c : IVec S_ 1 := constantI S_ 1 1#1
  let main_v3 : IVec S_ 1 := (fun x v => Host.reduce IntOp.andi x v reducesTo_S64x64x128x128_S_d0_1_2_3 h_S_) main_v2 main_c
  let main_v4 : FVec F S64x128x4x4 .f32 := Host.absf main_arg1
  let main_cst_0 : FVec F S_ .f32 := constant S_ .f32 0x7F800000#32
  let main_v5 : FVec F S64x128x4x4 .f32 := broadcastInDim S64x128x4x4 ![] bcast_S_S64x128x4x4 main_cst_0
  let main_v6 : IVec S64x128x4x4 1 := cmpf .olt main_v4 main_v5
  let main_c_1 : IVec S_ 1 := constantI S_ 1 1#1
  let main_v7 : IVec S_ 1 := (fun x v => Host.reduce IntOp.andi x v reducesTo_S64x128x4x4_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S64x64x128x128 : Shape := ⟨4, ![64, 64, 128, 128]⟩
abbrev S64x128x4x4 : Shape := ⟨4, ![64, 128, 4, 4]⟩
abbrev S128 : Shape := ⟨1, ![128]⟩
abbrev S64x64x1 : Shape := ⟨3, ![64, 64, 1]⟩
abbrev S4x64x128x128 : Shape := ⟨4, ![4, 64, 128, 128]⟩
abbrev S4x64x1 : Shape := ⟨3, ![4, 64, 1]⟩
abbrev S4x64x128 : Shape := ⟨3, ![4, 64, 128]⟩
abbrev S4x64 : Shape := ⟨2, ![4, 64]⟩
abbrev S64x64 : Shape := ⟨2, ![64, 64]⟩
abbrev S_ : Shape := ⟨0, ![]⟩
abbrev S64x128 : Shape := ⟨2, ![64, 128]⟩
abbrev S1x128 : Shape := ⟨2, ![1, 128]⟩
abbrev S64x128x1x1 : Shape := ⟨4, ![64, 128, 1, 1]⟩

abbrev nBuf : Space → Nat
  | .hbm => 18
  | .vmem => 4
  | .smem => 0
  | _ => 0

abbrev bufTy : (tb : Table) → Fin (tcTables nBuf tb) → BufTy
  | .hbm, ⟨0, _⟩ => ⟨S64x64x128x128, .f32⟩
  | .hbm, ⟨1, _⟩ => ⟨S64x128x4x4, .f32⟩
  | .hbm, ⟨2, _⟩ => ⟨S128, .f32⟩
  | .hbm, ⟨3, _⟩ => ⟨S64x64x1, .f32⟩
  | .hbm, ⟨4, _⟩ => ⟨S64x64, .f32⟩
  | .hbm, ⟨5, _⟩ => ⟨S_, .f32⟩
  | .hbm, ⟨6, _⟩ => ⟨S64x128, .f32⟩
  | .hbm, ⟨7, _⟩ => ⟨S64x128, .f32⟩
  | .hbm, ⟨8, _⟩ => ⟨S_, .f32⟩
  | .hbm, ⟨9, _⟩ => ⟨S64x128, .f32⟩
  | .hbm, ⟨10, _⟩ => ⟨S64x128, .f32⟩
  | .hbm, ⟨11, _⟩ => ⟨S1x128, .f32⟩
  | .hbm, ⟨12, _⟩ => ⟨S64x128, .f32⟩
  | .hbm, ⟨13, _⟩ => ⟨S64x128, .f32⟩
  | .hbm, ⟨14, _⟩ => ⟨S_, .f32⟩
  | .hbm, ⟨15, _⟩ => ⟨S64x128, .f32⟩
  | .hbm, ⟨16, _⟩ => ⟨S64x128, .f32⟩
  | .hbm, ⟨17, _⟩ => ⟨S64x128x1x1, .f32⟩
  | .local _ .vmem, ⟨0, _⟩ => ⟨S4x64x128x128, .f32⟩
  | .local _ .vmem, ⟨1, _⟩ => ⟨S4x64x128x128, .f32⟩
  | .local _ .vmem, ⟨2, _⟩ => ⟨S4x64x1, .f32⟩
  | .local _ .vmem, ⟨3, _⟩ => ⟨S4x64x1, .f32⟩
  | _, _ => ⟨S64x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4x64x128x128_S4x64x128x128_0_0_0_0 : ∀ a, (![0, 0, 0, 0] : Fin 4 → Nat) a + S4x64x128x128.size a ≤ S4x64x128x128.size a
  h_S4x64x128x128 : 0 < S4x64x128x128.numel
  reduces_S4x64x128x128_S4x64x128 : S4x64x128x128.Reduces [3] S4x64x128
  reduces_S4x64x128_S4x64 : S4x64x128.Reduces [2] S4x64
  shapeCasts_S4x64_S4x64x1 : S4x64.ShapeCasts S4x64x1
  inb_S4x64x1_S4x64x1_0_0_0 : ∀ a, (![0, 0, 0] : Fin 3 → Nat) a + S4x64x1.size a ≤ S4x64x1.size a
  h_S4x64x1 : 0 < S4x64x1.numel
  shapeCasts_S64x64x1_S64x64 : S64x64x1.ShapeCasts S64x64
  reducesTo_S64x128x4x4_S64x128_d2_3 : S64x128x4x4.ReducesTo [2, 3] S64x128
  h_S_ : 0 < S_.numel
  bcast_S_S64x128 : S_.BroadcastsInDim S64x128 (![] : Fin 0 → Fin S64x128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S64x128_S64x128x1x1_0_1 : S64x128.BroadcastsInDim S64x128x1x1 (![0, 1] : Fin 2 → Fin S64x128x1x1.rank)
  dot_S64x64_S64x128_S64x128_1_0_0_1_n_n_wf : DotDims.WF S64x64 S64x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x128x128.size a ≤ S64x64x128x128.size a
  hwx0_0 : ∀ i : grid0.Coords, EltTy.bits .f32 = 32 ∨ (Rect.block (s := S64x64x128x128) S4x64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x1.size a ≤ S64x64x1.size a
  hwx0_1 : ∀ i : grid0.Coords, EltTy.bits .f32 = 32 ∨ (Rect.block (s := S64x64x1) S4x64x1.size (cc0_transform_1 i) (hinb0_1 i)).WholeWords (EltTy.packing .f32)

variable [Facts₀]

def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf

abbrev win0_0 : Pipeline.Window sig grid0 :=
  Pipeline.Window.ofSpec (Memref.whole main_arg0) S4x64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x64x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x64x128x128 : Shape := ⟨4, ![64, 64, 128, 128]⟩
abbrev S64x128x4x4 : Shape := ⟨4, ![64, 128, 4, 4]⟩
abbrev S128 : Shape := ⟨1, ![128]⟩
abbrev S_ : Shape := ⟨0, ![]⟩
abbrev S64x64 : Shape := ⟨2, ![64, 64]⟩
abbrev S64x128 : Shape := ⟨2, ![64, 128]⟩
abbrev S1x128 : Shape := ⟨2, ![1, 128]⟩
abbrev S64x128x1x1 : Shape := ⟨4, ![64, 128, 1, 1]⟩

abbrev nBuf : Space → Nat
  | .hbm => 18
  | .vmem => 0
  | .smem => 0
  | _ => 0

abbrev bufTy : (tb : Table) → Fin (tcTables nBuf tb) → BufTy
  | .hbm, ⟨0, _⟩ => ⟨S64x64x128x128, .f32⟩
  | .hbm, ⟨1, _⟩ => ⟨S64x128x4x4, .f32⟩
  | .hbm, ⟨2, _⟩ => ⟨S128, .f32⟩
  | .hbm, ⟨3, _⟩ => ⟨S_, .f32⟩
  | .hbm, ⟨4, _⟩ => ⟨S64x64, .f32⟩
  | .hbm, ⟨5, _⟩ => ⟨S_, .f32⟩
  | .hbm, ⟨6, _⟩ => ⟨S64x128, .f32⟩
  | .hbm, ⟨7, _⟩ => ⟨S64x128, .f32⟩
  | .hbm, ⟨8, _⟩ => ⟨S_, .f32⟩
  | .hbm, ⟨9, _⟩ => ⟨S64x128, .f32⟩
  | .hbm, ⟨10, _⟩ => ⟨S64x128, .f32⟩
  | .hbm, ⟨11, _⟩ => ⟨S1x128, .f32⟩
  | .hbm, ⟨12, _⟩ => ⟨S64x128, .f32⟩
  | .hbm, ⟨13, _⟩ => ⟨S64x128, .f32⟩
  | .hbm, ⟨14, _⟩ => ⟨S_, .f32⟩
  | .hbm, ⟨15, _⟩ => ⟨S64x128, .f32⟩
  | .hbm, ⟨16, _⟩ => ⟨S64x128, .f32⟩
  | .hbm, ⟨17, _⟩ => ⟨S64x128x1x1, .f32⟩
  | _, _ => ⟨S64x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  reducesTo_S64x64x128x128_S64x64_d2_3 : S64x64x128x128.ReducesTo [2, 3] S64x64
  h_S_ : 0 < S_.numel
  reducesTo_S64x128x4x4_S64x128_d2_3 : S64x128x4x4.ReducesTo [2, 3] S64x128
  bcast_S_S64x128 : S_.BroadcastsInDim S64x128 (![] : Fin 0 → Fin S64x128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S64x128_S64x128x1x1_0_1 : S64x128.BroadcastsInDim S64x128x1x1 (![0, 1] : Fin 2 → Fin S64x128x1x1.rank)
  dot_S64x64_S64x128_S64x128_1_0_0_1_n_n_wf : DotDims.WF S64x64 S64x128 S64x128 [1] [0] [0] [1] [] []

variable [Facts₀]

def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf

class Facts : Prop extends Facts₀ where

variable [Facts]
-- ==== Proof.LibTwoAxisSum.lean ====
/-
  A sum over two trailing axes, read as an iterated sum.

  A reduction over a set of axes of an array adds, at each index `j` of the reduced shape, the entries whose
  index DROPS to `j` (the coordinates on the reduced axes removed).  Dropping two axes is dropping one and then the
  other, so the entries over `j` are partitioned by the intermediate index they drop to first: the sum over the
  fibre of a composite map is the sum, over the fibre of the outer map, of the sums over the fibres of the inner
  one (`sum_fibre_comp`; nothing but commutativity and associativity of the addition is used, so it holds in any
  commutative monoid, the extended reals with their infinities included).

  With the one-axis reading of the library (the fibre of a one-axis drop is the dropped axis's coordinates,
  `Shape.Reduces.sum_filter_drop_single`) this reads
    * the host's exact sum over two axes as the initial value plus a double sum over the two dropped
      coordinates (`hostReduceAdd_two_axes`), and
    * a vector sum over one axis followed by a vector sum over another as the same double sum
      (`reduceAdd_reduceAdd`),
  for any shapes, provided the two-axis drop is the composite of the two one-axis drops (at literal shapes
  both sides compute, coordinate by coordinate).

  The last section specialises both to a rank-4 array `[N, C, H, W]` summed over its two trailing (spatial) axes:
  each is `spatialSum x n c = ∑ h, ∑ w, x[n, c, h, w]`.
-/
import Idealize.ShloMosaic.PureOps.Ideal.Laws
import Idealize.ShloMosaic.Lib.ValueIdx

namespace Cert.LibTwoAxisSum

open Idealize.ShloMosaic Idealize.ShloMosaic.ValueIdx

/-- The sum over the fibre of a composite `g ∘ f` over `j` is the sum over the fibre of `g` over `j` of the sums over
    the fibres of `f`: every `i` with `g (f i) = j` is counted once, under `b = f i`. -/
theorem sum_fibre_comp {A B C M : Type} [Fintype A] [Fintype B] [AddCommMonoid M]
    (f : A → B) (g : B → C) (x : A → M) (j : C)
    [DecidablePred fun b => g b = j] [∀ b, DecidablePred fun i => f i = b] [DecidablePred fun i => g (f i) = j] :
    ∑ b ∈ Finset.univ.filter (fun b => g b = j), ∑ i ∈ Finset.univ.filter (fun i => f i = b), x i
      = ∑ i ∈ Finset.univ.filter (fun i => g (f i) = j), x i := by
  rw [Finset.sum_comm' (t' := Finset.univ.filter fun i => g (f i) = j) (s' := fun i => {f i})]
  · simp only [Finset.sum_singleton]
  · intro b i
    simp only [Finset.mem_filter, Finset.mem_univ, true_and, Finset.mem_singleton]
    constructor
    · rintro ⟨hb, hi⟩; exact ⟨hi.symm, by rw [hi]; exact hb⟩
    · rintro ⟨hb, hi⟩; exact ⟨by rw [hb]; exact hi, hb.symm⟩

section TwoAxes

variable {s t u : Shape} {a b : Fin s.rank} {a' : Fin t.rank}

/-- The sum of the entries that drop to `j` under a two-axis drop which is the composite of two one-axis drops: the
    double sum over the two dropped coordinates, the outer axis's first. -/
theorem sum_filter_drop_two {M : Type} [AddCommMonoid M] (drop : s.Idx → u.Idx) (h1 : s.Reduces [b] t) (h2 : t.Reduces [a'] u)
    (hd : ∀ i, drop i = h2.drop (h1.drop i)) (x : s.Idx → M) (j : u.Idx) :
    ∑ i ∈ Finset.univ.filter (fun i => drop i = j), x i
      = ∑ k : Fin (t.size a'), ∑ l : Fin (s.size b), x (h1.lift (h2.lift j k) l) := by
  have e : (Finset.univ.filter fun i => drop i = j) = Finset.univ.filter fun i => h2.drop (h1.drop i) = j := by
    ext i; simp only [Finset.mem_filter, Finset.mem_univ, true_and, hd]
  rw [e, ← sum_fibre_comp h1.drop h2.drop x j, h2.sum_filter_drop_single]
  exact Finset.sum_congr rfl fun k _ => h1.sum_filter_drop_single x _

/-- The host's exact float sum over two axes, at `j`: the initial value plus the double sum over the dropped
    coordinates. -/
theorem hostReduceAdd_two_axes (h' : s.ReducesTo [a, b] u) (h1 : s.Reduces [b] t) (h2 : t.Reduces [a'] u)
    (hd : ∀ i, h'.drop i = h2.drop (h1.drop i)) (x : s.Idx → EReal) (init : EReal) (j : u.Idx) :
    Ideal.hostReduceAdd h' x init j = init + ∑ k : Fin (t.size a'), ∑ l : Fin (s.size b), x (h1.lift (h2.lift j k) l) := by
  unfold Ideal.hostReduceAdd
  rw [sum_filter_drop_two h'.drop h1 h2 hd x j]

/-- A vector sum over one axis and then over another, at `j`: the same double sum. -/
theorem reduceAdd_reduceAdd (h1 : s.Reduces [b] t) (h2 : t.Reduces [a'] u) (x : s.Idx → EReal) (j : u.Idx) :
    Ideal.reduceAdd h2 (Ideal.reduceAdd h1 x) j = ∑ k : Fin (t.size a'), ∑ l : Fin (s.size b), x (h1.lift (h2.lift j k) l) := by
  rw [Ideal.reduceAdd_single h2]
  exact Finset.sum_congr rfl fun k _ => Ideal.reduceAdd_single h1 x _

end TwoAxes

/-! ## A rank-4 array summed over its two trailing axes -/

/-- The sum of plane `(n, c)` of a rank-4 array of extended reals: over `h`, of the sums over `w`, of entry
    `(n, c, h, w)`. -/
noncomputable def spatialSum {N C H W : Nat} (x : (⟨4, ![N, C, H, W]⟩ : Shape).Idx → EReal) (n : Fin N) (c : Fin C) : EReal :=
  ∑ h : Fin H, ∑ w : Fin W, x (ix4 n c h w)

section Spatial

variable {N C H W : Nat}

/-- Index `(n, c)` with `h` and then `w` inserted as the third and fourth coordinates is `(n, c, h, w)`. -/
theorem lift_lift (h1 : (⟨4, ![N, C, H, W]⟩ : Shape).Reduces [3] ⟨3, ![N, C, H]⟩)
    (h2 : (⟨3, ![N, C, H]⟩ : Shape).Reduces [2] ⟨2, ![N, C]⟩) (j : (⟨2, ![N, C]⟩ : Shape).Idx) (k : Fin H) (l : Fin W) :
    h1.lift (h2.lift j k) l = ix4 (j 0) (j 1) k l := by
  funext d
  apply Fin.ext
  match d with
  | ⟨0, _⟩ => rfl
  | ⟨1, _⟩ => rfl
  | ⟨2, _⟩ => rfl
  | ⟨3, _⟩ => rfl

/-- Dropping the two trailing axes at once is dropping the last and then the last again. -/
theorem drop_drop (h' : (⟨4, ![N, C, H, W]⟩ : Shape).ReducesTo [2, 3] ⟨2, ![N, C]⟩)
    (h1 : (⟨4, ![N, C, H, W]⟩ : Shape).Reduces [3] ⟨3, ![N, C, H]⟩)
    (h2 : (⟨3, ![N, C, H]⟩ : Shape).Reduces [2] ⟨2, ![N, C]⟩) (i : (⟨4, ![N, C, H, W]⟩ : Shape).Idx) :
    h'.drop i = h2.drop (h1.drop i) := by
  funext d
  apply Fin.ext
  match d with
  | ⟨0, _⟩ => rfl
  | ⟨1, _⟩ => rfl

/-- The one-axis shape facts, at any extents (the kept axes do not depend on them). -/
theorem reduces_last : (⟨4, ![N, C, H, W]⟩ : Shape).Reduces [3] ⟨3, ![N, C, H]⟩ :=
  ⟨rfl, Nat.zero_lt_succ 2, fun d => by match d with | ⟨0, _⟩ => rfl | ⟨1, _⟩ => rfl | ⟨2, _⟩ => rfl⟩
theorem reduces_last' : (⟨3, ![N, C, H]⟩ : Shape).Reduces [2] ⟨2, ![N, C]⟩ :=
  ⟨rfl, Nat.zero_lt_succ 1, fun d => by match d with | ⟨0, _⟩ => rfl | ⟨1, _⟩ => rfl⟩

/-- The host's exact sum over the two trailing axes of `[N, C, H, W]`, at `(n, c)`: the initial value plus the
    plane's sum. -/
theorem hostReduceAdd_spatial (h' : (⟨4, ![N, C, H, W]⟩ : Shape).ReducesTo [2, 3] ⟨2, ![N, C]⟩)
    (x : (⟨4, ![N, C, H, W]⟩ : Shape).Idx → EReal) (init : EReal) (j : (⟨2, ![N, C]⟩ : Shape).Idx) :
    Ideal.hostReduceAdd h' x init j = init + spatialSum x (j 0) (j 1) := by
  rw [hostReduceAdd_two_axes h' reduces_last reduces_last' (drop_drop h' _ _) x init j]
  refine congrArg (init + ·) (Finset.sum_congr rfl fun k _ => Finset.sum_congr rfl fun l _ => ?_)
  exact congrArg x (lift_lift _ _ j k l)

/-- A vector sum over the last axis of `[N, C, H, W]` and then over the last axis of `[N, C, H]`, at `(n, c)`: the
    plane's sum. -/
theorem reduceAdd_spatial (h1 : (⟨4, ![N, C, H, W]⟩ : Shape).Reduces [3] ⟨3, ![N, C, H]⟩)
    (h2 : (⟨3, ![N, C, H]⟩ : Shape).Reduces [2] ⟨2, ![N, C]⟩)
    (x : (⟨4, ![N, C, H, W]⟩ : Shape).Idx → EReal) (j : (⟨2, ![N, C]⟩ : Shape).Idx) :
    Ideal.reduceAdd h2 (Ideal.reduceAdd h1 x) j = spatialSum x (j 0) (j 1) := by
  rw [reduceAdd_reduceAdd h1 h2 x j]
  refine Finset.sum_congr rfl fun k _ => Finset.sum_congr rfl fun l _ => ?_
  exact congrArg x (lift_lift _ _ j k l)

/-- The host's float sum of `[N, C, H, W]` over its two trailing axes from the initial value `0.0`: the array of the
    planes' sums (the initial value is the extended real zero, and `0 + s = s` at the infinities too). -/
theorem hostSum_spatial (x : FVec Ideal ⟨4, ![N, C, H, W]⟩ .f32)
    (h' : (⟨4, ![N, C, H, W]⟩ : Shape).ReducesTo [2, 3] ⟨2, ![N, C]⟩) (hu : 0 < (⟨0, ![]⟩ : Shape).numel) :
    Host.reduceAdd x (constant (F := Ideal) ⟨0, ![]⟩ .f32 0x00000000#32) h' hu = fun j => spatialSum x (j 0) (j 1) := by
  funext j
  show Ideal.hostReduceAdd h' x (Ideal.ofBits .f32 0x00000000#32) j = _
  rw [hostReduceAdd_spatial, Ideal.ofBits_zero_f32, zero_add]

end Spatial

end Cert.LibTwoAxisSum
-- ==== Proof.KernelBlock.lean ====
/-
  What the kernel body stores, read at an index.

  The body loads its whole input block `x0 : [4, 64, 128, 128]`, sums it over the last axis, sums the result over
  the (new) last axis, and appends a unit axis: the stored vector has shape `[4, 64, 1]`, and its entry
  `(a, b, 0)` is the sum of plane `(a, b)` of the block — `∑ h, ∑ w, x0[a, b, h, w]`.  The two vector sums at the
  ideal instance are exact sums over the entries that drop to an index, so the two-axis reading of
  `LibTwoAxisSum` applies as it stands; the appended unit axis does not move the row-major position.
-/
import proofs.«139221_j1580547974782_2_alg».proof.Proof.Gen.KernelIdeal.Skeleton
import proofs.«139221_j1580547974782_2_alg».proof.Proof.LibTwoAxisSum
import Idealize.ShloMosaic.Lib.Pipeline.Value

namespace Cert.KernelIdeal.Block

open Cert.KernelIdeal Cert.KernelIdeal.Gen Idealize.ShloMosaic Idealize.ShloMosaic.ValueIdx Cert.LibTwoAxisSum

/-- Entry `y = (a, b, 0)` of the stored vector is the sum of plane `(a, b)` of the loaded block. -/
theorem pay_apply (x0 : Vec Ideal S4x64x128x128 .f32) (y : S4x64x1.Idx) :
    k0_pay1 (F := Ideal) x0 y = spatialSum x0 (y 0) (y 1) := by
  unfold k0_pay1
  refine (shapeCast_apply _ shapeCasts_S4x64_S4x64x1 y (ix2 (y 0) (y 1)) ?_).trans ?_
  · rw [Shape.rowMajor_val_two, Shape.rowMajor_val_three]
    have h2 : (y 2).val < 1 := (y 2).isLt
    show (y 0).val * 64 + (y 1).val = ((y 0).val * 64 + (y 1).val) * 1 + (y 2).val
    omega
  · exact reduceAdd_spatial _ _ x0 (ix2 (y 0) (y 1))

end Cert.KernelIdeal.Block
-- ==== Proof.KernelArray.lean ====
/-
  The array the pallas_call leaves: every plane's sum.

  The grid has 16 points; point `t` fetches rows `4t … 4t+3` of the input `x : [64, 64, 128, 128]` (all of the other
  three axes) and writes back rows `4t … 4t+3` of the output `[64, 64, 1]`.  What it writes back is the body's stored
  vector, whose entry `(a, b, 0)` is the sum of plane `(a, b)` of the fetched block (`Block.pay_apply`), and plane
  `(a, b)` of block `t` is plane `(4t + a, b)` of `x`.  So each written block is a block of ONE function of the
  array index, `planeSums x (n, c, 0) = ∑ h, ∑ w, x[n, c, h, w]`; the sixteen blocks tile the output (row `n` is in
  block `n / 4`), hence the output array ends equal to `planeSums x`.
-/
import proofs.«139221_j1580547974782_2_alg».proof.Proof.Gen.KernelIdeal.Frame
import proofs.«139221_j1580547974782_2_alg».proof.Proof.KernelBlock
import Idealize.ShloMosaic.Lib.Pipeline.Value

set_option maxRecDepth 16384

noncomputable section

namespace Cert.KernelIdeal.Array

open Cert.KernelIdeal Cert.KernelIdeal.Gen Idealize.ShloMosaic Idealize.ShloMosaic.TcCoe Idealize.SL.Sem
open Idealize.ShloMosaic.ValueIdx Cert.LibTwoAxisSum
open Idealize.ShloMosaic.Pipeline (Dat)

variable (m : (ℓ : Loc nD τ sig) → Buf (Elt Ideal) ℓ)

/-- Every plane's sum, laid out as the output array `[64, 64, 1]`. -/
def planeSums (x : S64x64x128x128.Idx → EReal) : S64x64x1.Idx → EReal :=
  fun i => spatialSum x (i 0) (i 1)

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The printed index maps over the grid: at point `t` both windows sit at block row `t`, and at block 0 on every
    other axis. -/
theorem idx_facts : ∀ t : Fin cfg0.N,
    win0_0.index t (0 : Fin 4) = t.val ∧ win0_0.index t (1 : Fin 4) = 0
    ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

/-- WHAT POINT `t` WRITES BACK is block `t` of `planeSums` of the input array as the region finds it. -/
theorem flushed_eq (c : Dev nD) (t : Fin cfg0.N) :
    (dats m 0 c).flushed 1 t = ((cfg0.win 1).blk t).view.read (Elt Ideal) (planeSums (V m c main_arg0)) := by
  show (cfg0.win 1).cut (grid0.coords t) ((dats m 0 c).after 1 t) = _
  rw [after0_1]
  unfold out0_1
  rw [View.canon_unit_zero zeros3]
  simp only [View.ld_unit_zero (S := S4x64x128x128) zeros4]
  obtain ⟨e0, e1, e2, e3, f0, f1, f2⟩ := idx_facts t
  funext y
  show k0_pay1 (iblk m c 0 t) y = planeSums (V m c main_arg0) (((cfg0.win 1).blk t).view.emb y)
  refine (Block.pay_apply (iblk m c 0 t) y).trans ?_
  unfold planeSums spatialSum
  refine Finset.sum_congr rfl fun h _ => Finset.sum_congr rfl fun w _ => ?_
  show V m c main_arg0 (((cfg0.win 0).blk t).view.emb (ix4 (y 0) (y 1) h w))
    = V m c main_arg0 (ix4 ((((cfg0.win 1).blk t).view.emb y) 0) ((((cfg0.win 1).blk t).view.emb y) 1) h w)
  refine congrArg (V m c main_arg0) (funext fun a => Fin.ext ?_)
  match a with
  | ⟨0, _⟩ => show win0_0.index t (0 : Fin 4) * 4 + 1 * (y 0).val = win0_1.index t (0 : Fin 3) * 4 + 1 * (y 0).val; omega
  | ⟨1, _⟩ => show win0_0.index t (1 : Fin 4) * 64 + 1 * (y 1).val = win0_1.index t (1 : Fin 3) * 64 + 1 * (y 1).val; omega
  | ⟨2, _⟩ => show win0_0.index t (2 : Fin 4) * 128 + 1 * h.val = h.val; omega
  | ⟨3, _⟩ => show win0_0.index t (3 : Fin 4) * 128 + 1 * w.val = w.val; omega

/-- An index of the output array is in point `t`'s block iff each coordinate is in the block's range on its axis. -/
theorem mem_blk (t : Fin cfg0.N) (i : S64x64x1.Idx) :
    i ∈ ((cfg0.win 1).blk t).view.set ↔ ∀ a : Fin 3, win0_1.index t a * S4x64x1.size a ≤ (i a).val
      ∧ (i a).val < win0_1.index t a * S4x64x1.size a + S4x64x1.size a := by
  show i ∈ ((View.whole main_v0).slice (win0_1.rect t)).set ↔ _
  rw [View.set_slice_whole, Rect.mem_set_unit]
  exact Iff.rfl

/-- The blocks tile the output: row `n` is written back by point `n / 4`. -/
theorem cover (i : S64x64x1.Idx) :
    ∃ t : Fin cfg0.N, (cfg0.win 1).flush t = true ∧ i ∈ ((cfg0.win 1).blk t).view.set := by
  have hi0 : (i 0).val < 64 := (i 0).isLt
  have hi1 : (i 1).val < 64 := (i 1).isLt
  have hi2 : (i 2).val < 1 := (i 2).isLt
  have hN : grid0.N = 16 := N_0
  obtain ⟨t, ht⟩ : ∃ t : Fin cfg0.N, t.val = (i 0).val / 4 := ⟨⟨(i 0).val / 4, by show _ < grid0.N; omega⟩, rfl⟩
  obtain ⟨e0, e1, e2, e3, f0, f1, f2⟩ := idx_facts t
  refine ⟨t, flush0_1 t, ?_⟩
  rw [mem_blk]
  intro a
  match a with
  | ⟨0, _⟩ => show win0_1.index t (0 : Fin 3) * 4 ≤ (i 0).val ∧ (i 0).val < win0_1.index t (0 : Fin 3) * 4 + 4; omega
  | ⟨1, _⟩ => show win0_1.index t (1 : Fin 3) * 64 ≤ (i 1).val ∧ (i 1).val < win0_1.index t (1 : Fin 3) * 64 + 64; omega
  | ⟨2, _⟩ => show win0_1.index t (2 : Fin 3) * 1 ≤ (i 2).val ∧ (i 2).val < win0_1.index t (2 : Fin 3) * 1 + 1; omega

/-- THE OUTPUT ARRAY after the run: every plane's sum of the input array as launched. -/
theorem final (c : Dev nD) :
    (dats m 0 c).arrAt 1 cfg0.N = planeSums (m ((c : Thread nD τ).loc main_arg0)) :=
  (dats m 0 c).arrAt_eq_of_cover 1 (planeSums (V m c main_arg0)) (fun t _ => flushed_eq m c t) cover

end Cert.KernelIdeal.Array

end
-- ==== Proof.Tail.lean ====
/-
  The host operations that follow the plane sums, as one function.

  Both programs go on from the array `sx : [64, 64]` of plane sums in the same way: the weights `w : [64, 128, 4, 4]`
  are summed over their two trailing axes to `sw : [64, 128]`, the product `sx · sw : [64, 128]` is scaled by
  `2⁻¹⁶` (the literal `0x37800000`), the bias is added along the rows, the result is halved (`0x3F000000`), and two
  unit axes are appended.  The certificate never opens this function: it shows the two programs feed it the same
  `sx`, the same weights and the same bias.
-/
import proofs.«139221_j1580547974782_2_alg».proof.Proof.Gen.KernelIdeal
import Idealize.ShloMosaic.PureOps.Ideal

noncomputable section

namespace Cert.KernelIdeal.Tail

open Cert.KernelIdeal Cert.KernelIdeal.Gen Idealize.ShloMosaic

/-- `((sx · Σ_taps w) * 2⁻¹⁶ + bias) * ½`, as a `[64, 128, 1, 1]` array, in the printed operations. -/
def tail (sx : FVec Ideal S64x64 .f32) (w : FVec Ideal S64x128x4x4 .f32) (b : FVec Ideal S128 .f32) :
    FVec Ideal S64x128x1x1 .f32 :=
  broadcastInDim S64x128x1x1 ![0, 1] bcast_S64x128_S64x128x1x1_0_1
    (mulf
      (addf
        (mulf
          (Host.dotGeneral dot_S64x64_S64x128_S64x128_1_0_0_1_n_n none sx
            (Host.reduceAdd w (constant (F := Ideal) S_ .f32 0x00000000#32) reducesTo_S64x128x4x4_S64x128_d2_3 h_S_))
          (broadcastInDim S64x128 ![] bcast_S_S64x128 (constant (F := Ideal) S_ .f32 0x37800000#32)))
        (broadcastInDim S64x128 ![0, 1] bcast_S1x128_S64x128_0_1 (broadcastInDim S1x128 ![1] bcast_S128_S1x128_1 b)))
      (broadcastInDim S64x128 ![] bcast_S_S64x128 (constant (F := Ideal) S_ .f32 0x3F000000#32)))

end Cert.KernelIdeal.Tail

end
-- ==== Proof.KernelRun.lean ====
/-
  The kernel's program, run: its result is the shared tail applied to the plane sums.

  After the pallas_call the output array `[64, 64, 1]` holds every plane's sum (`Array.final`); @main reshapes it to
  `[64, 64]` — the trailing unit axis does not move a row-major position, so entry `(n, c)` is still the sum of plane
  `(n, c)` — and applies the tail to it, to the weights and to the bias, none of which the call touched.
-/
import proofs.«139221_j1580547974782_2_alg».proof.Proof.KernelArray
import proofs.«139221_j1580547974782_2_alg».proof.Proof.Tail
import Idealize.ShloMosaic.Lib.StableHlo.Run

set_option maxRecDepth 16384

noncomputable section

namespace Cert.KernelIdeal.Run

open Cert.KernelIdeal Cert.KernelIdeal.Gen Idealize.ShloMosaic Idealize.ShloMosaic.TcCoe Idealize.SL.Sem
open Idealize.ShloMosaic.StableHlo Idealize.ShloMosaic.ValueIdx Cert.LibTwoAxisSum
open Cert.KernelIdeal.Array Cert.KernelIdeal.Tail

variable (m : (ℓ : Loc nD τ sig) → Buf (Elt Ideal) ℓ) (ρ : Dev nD → PrngReg)

/-- The plane sums with the trailing unit axis dropped: entry `(n, c)` is the sum of plane `(n, c)`. -/
theorem reshape_planeSums (x : S64x64x128x128.Idx → EReal) :
    (fun i => shapeCast S64x64 (planeSums x) shapeCasts_S64x64x1_S64x64 i) = fun j => spatialSum x (j 0) (j 1) := by
  funext j
  refine shapeCast_apply (planeSums x) shapeCasts_S64x64x1_S64x64 j (ix3 (j 0) (j 1) (0 : Fin 1)) ?_
  rw [Shape.rowMajor_val_two, Shape.rowMajor_val_three]
  show ((j 0).val * 64 + (j 1).val) * 1 + 0 = (j 0).val * 64 + (j 1).val
  omega

/-- What the host operations after the call leave in @main's result buffer. -/
theorem tail_result (c : Dev nD) :
    Pipeline.afterTail₀ cfgs (dats m) 0 (V0 m) [hostOps1] c main_v11
      = tail (fun j => spatialSum (m ((c : Thread nD τ).loc main_arg0)) (j 0) (j 1))
          (m ((c : Thread nD τ).loc main_arg1)) (m ((c : Thread nD τ).loc main_arg2)) := by
  unfold Pipeline.afterTail₀
  show StableHlo.after hostOps1 _ (Proc.devRef .tc main_v11) = _
  after_results
  rw [Pipeline.withArrays_of_ne _ c (V0 m c) _ main_arg1 (by exact (by decide : ∀ w, Pipeline.arrRef spec0 w ≠ main_arg1)),
    Pipeline.withArrays_of_ne _ c (V0 m c) _ main_arg2 (by exact (by decide : ∀ w, Pipeline.arrRef spec0 w ≠ main_arg2)),
    show Pipeline.withArrays (cfgs 0).spec c (V0 m c) (fun w => (dats m 0 c).arrAt w (cfgs 0).N) (Proc.devRef .tc main_v0)
        = planeSums (m ((c : Thread nD τ).loc main_arg0)) from
      (Pipeline.withArrays_arr spec0 launch0.win.arr_inj c _ _ 1).trans (final m c)]
  exact congrArg (fun sx => tail sx (m ((c : Thread nD τ).loc main_arg1)) (m ((c : Thread nD τ).loc main_arg2)))
    (reshape_planeSums (m ((c : Thread nD τ).loc main_arg0)))

/-- Every weakly fair execution of the kernel's @main terminates with the result buffer at the tail of the plane
    sums of the arguments, and the arguments unchanged. -/
theorem run : θ_run defs (onTc (τ := τ) (main (F := Ideal))) ⟨m, fun _ => 0, ρ⟩ fun r => ∀ c : Dev nD,
      r.2.mem ((c.tc : Thread nD τ).loc main_v11)
        = tail (fun j => spatialSum (m ((c.tc : Thread nD τ).loc main_arg0)) (j 0) (j 1))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.RefValue.lean ====
/-
  The reference's result is the same tail of the same plane sums.

  The reference sums `x : [64, 64, 128, 128]` over its two trailing axes at once, from the initial value `0.0`.  At the
  ideal instance that is the exact sum of the entries over each `(n, c)`, which is the iterated sum the kernel takes
  — over `w`, then over `h` — because a sum over the fibre of a two-axis drop is the sum over the outer axis of the
  sums over the inner one (`LibTwoAxisSum`; commutativity and associativity only, so no finiteness of the inputs
  is used).  From there on the reference's operations are, one for one, the kernel's host operations: the same
  function `Tail.tail`, whose shape facts are propositions and so the same in either program's vocabulary.
-/
import proofs.«139221_j1580547974782_2_alg».proof.Proof.Gen.ReferenceIdeal.Run
import proofs.«139221_j1580547974782_2_alg».proof.Proof.Tail
import proofs.«139221_j1580547974782_2_alg».proof.Proof.LibTwoAxisSum

noncomputable section

namespace Cert.ReferenceIdeal.RefValue

open Cert.ReferenceIdeal Cert.ReferenceIdeal.Gen Idealize.ShloMosaic Cert.LibTwoAxisSum

/-- The reference run's result term, at `Ideal`, is the shared tail applied to the plane sums of `x`, the weights
    and the bias. -/
theorem result_eq (x : FVec Ideal S64x64x128x128 .f32) (w : FVec Ideal S64x128x4x4 .f32) (b : FVec Ideal S128 .f32) :
    broadcastInDim S64x128x1x1 ![0, 1] bcast_S64x128_S64x128x1x1_0_1 (mulf (addf (mulf (Host.dotGeneral dot_S64x64_S64x128_S64x128_1_0_0_1_n_n none (Host.reduceAdd x (constant (F := Ideal) S_ .f32 0x00000000#32) reducesTo_S64x64x128x128_S64x64_d2_3 h_S_) (Host.reduceAdd w (constant (F := Ideal) S_ .f32 0x00000000#32) reducesTo_S64x128x4x4_S64x128_d2_3 h_S_)) (broadcastInDim S64x128 ![] bcast_S_S64x128 (constant (F := Ideal) S_ .f32 0x37800000#32))) (broadcastInDim S64x128 ![0, 1] bcast_S1x128_S64x128_0_1 (broadcastInDim S1x128 ![1] bcast_S128_S1x128_1 b))) (broadcastInDim S64x128 ![] bcast_S_S64x128 (constant (F := Ideal) S_ .f32 0x3F000000#32)))
      = Cert.KernelIdeal.Tail.tail (fun j => spatialSum x (j 0) (j 1)) w b := by
  rw [hostSum_spatial x reducesTo_S64x64x128x128_S64x64_d2_3 h_S_]
  rfl

end Cert.ReferenceIdeal.RefValue

end
-- ==== Proof.lean ====
/-
  A transposed convolution followed by a global average pool and a scale collapses, by linearity of the sum, to
  `out[n, o] = ((Σ_c sx[n, c] · sw[c, o]) · 2⁻¹⁶ + bias[o]) · ½` with `sx[n, c] = Σ_{h,w} x[n, c, h, w]` and
  `sw[c, o] = Σ_taps weight[c, o, ·, ·]`.  The kernel computes `sx` in a pallas_call — sixteen grid points, each
  summing four rows of `x` over `w` and then over `h` — and the rest on the host; the reference computes `sx` by one
  host sum over both axes and the rest by the same host operations.

  At the ideal instance both sums are exact, and they are one number: the entries over `(n, c)` are partitioned by
  their `h` coordinate (`Proof/LibTwoAxisSum.lean`).  `Proof/KernelBlock.lean` reads the body's stored value at an
  index, `Proof/KernelArray.lean` assembles the sixteen written blocks into the whole array of plane sums,
  `Proof/KernelRun.lean` follows @main's host operations after the call, `Proof/RefValue.lean` reads the reference,
  and `Proof/Tail.lean` names the host operations the two programs share.  No finiteness of the inputs is needed:
  only commutativity and associativity of addition on the extended reals are used.  The ideal pass rewrote nothing,
  so `preserves` is `True`.
-/
import proofs.«139221_j1580547974782_2_alg».proof.Defs
import proofs.«139221_j1580547974782_2_alg».proof.Proof.Gen.Kernel
import proofs.«139221_j1580547974782_2_alg».proof.Proof.Gen.Kernel.Skeleton
import proofs.«139221_j1580547974782_2_alg».proof.Proof.Gen.Kernel.Launch
import proofs.«139221_j1580547974782_2_alg».proof.Proof.Gen.Kernel.Points
import proofs.«139221_j1580547974782_2_alg».proof.Proof.Gen.Kernel.Frame
import proofs.«139221_j1580547974782_2_alg».proof.Proof.Gen.KernelIdeal
import proofs.«139221_j1580547974782_2_alg».proof.Proof.Gen.KernelIdeal.Skeleton
import proofs.«139221_j1580547974782_2_alg».proof.Proof.Gen.KernelIdeal.Launch
import proofs.«139221_j1580547974782_2_alg».proof.Proof.Gen.KernelIdeal.Points
import proofs.«139221_j1580547974782_2_alg».proof.Proof.Gen.KernelIdeal.Frame
import proofs.«139221_j1580547974782_2_alg».proof.Proof.Gen.ReferenceIdeal
import proofs.«139221_j1580547974782_2_alg».proof.Proof.Gen.Pre_finite_inputs
import proofs.«139221_j1580547974782_2_alg».proof.Proof.Gen.ReferenceIdeal.Run
import proofs.«139221_j1580547974782_2_alg».proof.Proof.KernelRun
import proofs.«139221_j1580547974782_2_alg».proof.Proof.RefValue
import Idealize.ShloMosaic.Adequacy
import Idealize.ShloMosaic.Init

noncomputable section

namespace Cert.Proof

open Idealize.ShloMosaic Idealize.ShloMosaic.TcCoe Idealize.SL.Sem Cert.LibTwoAxisSum

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the tail of the plane sums of the same arguments. -/
theorem algebraic : Cert.algebraic_KernelIdeal_ReferenceIdeal := by
  intro m ρ m' ρ' _ hagree
  refine ⟨fun c => Cert.KernelIdeal.Tail.tail
      (fun j => spatialSum (m ((c.tc : Thread Cert.KernelIdeal.nD Cert.KernelIdeal.τ).loc Cert.KernelIdeal.main_arg0)) (j 0) (j 1))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
